-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16x64 : Shape := ⟨2, ![16, 64]⟩
abbrev S64x16 : Shape := ⟨2, ![64, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg4 : FVec F S64x16 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  main_v23

def fn {F : FTy → Type} [FloatOps F] (main_arg0 : FVec F S8192x4096 .f32) (main_arg1 : FVec F S16x64 .f32) (main_arg2 : FVec F S64x16 .f32) (main_arg3 : FVec F S16x64 .f32) (main_arg4 : FVec F S64x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_v13 main_v16
-- ==== Kernel.lean ====
abbrev S8192x4096 : Shape := ⟨2, ![8192, 4096]⟩
abbrev S16x64 : Shape := ⟨2, ![16, 64]⟩
abbrev S64x16 : Shape := ⟨2, ![64, 16]⟩
abbrev S64x64 : Shape := ⟨2, ![64, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S4096x4096 : Shape := ⟨2, ![4096, 4096]⟩
abbrev S_ : Shape := ⟨0, ![]⟩
abbrev S128x4096 : Shape := ⟨2, ![128, 4096]⟩

abbrev nBuf : Space → Nat
  | .hbm => 24
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S16x64, .f32⟩
  | .hbm, ⟨2, _⟩ => ⟨S64x16, .f32⟩
  | .hbm, ⟨3, _⟩ => ⟨S16x64, .f32⟩
  | .hbm, ⟨4, _⟩ => ⟨S64x16, .f32⟩
  | .hbm, ⟨5, _⟩ => ⟨S64x16, .f32⟩
  | .hbm, ⟨6, _⟩ => ⟨S16x64, .f32⟩
  | .hbm, ⟨7, _⟩ => ⟨S64x64, .f32⟩
  | .hbm, ⟨8, _⟩ => ⟨S64x16, .f32⟩
  | .hbm, ⟨9, _⟩ => ⟨S16x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x1x64x1, .f32⟩
  | .hbm, ⟨14, _⟩ => ⟨S1x64x1x64, .f32⟩
  | .hbm, ⟨15, _⟩ => ⟨S64x64x64x64, .f32⟩
  | .hbm, ⟨16, _⟩ => ⟨S64x64x64x64, .f32⟩
  | .hbm, ⟨17, _⟩ => ⟨S64x64x64x64, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S128x4096, .f32⟩
  | .local _ .vmem, ⟨4, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16x64_S64x16_1_0 : S16x64.Transposes [1, 0] S64x16
  transposes_S64x16_S16x64_1_0 : S64x16.Transposes [1, 0] S16x64
  transposes_S64x64_S64x64_1_0 : S64x64.Transposes [1, 0] S64x64
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S_S4096x4096 : S_.BroadcastsInDim S4096x4096 (![] : Fin 0 → Fin S4096x4096.rank)
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S64x16_S16x64_S64x64_1_0_0_1_n_n_wf : DotDims.WF S64x16 S16x64 S64x64 [1] [0] [0] [1] [] []
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)

variable [Facts₀]

def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16x64 : Shape := ⟨2, ![16, 64]⟩
abbrev S64x16 : Shape := ⟨2, ![64, 16]⟩
abbrev S64x64 : Shape := ⟨2, ![64, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16x64, .f32⟩
  | .hbm, ⟨2, _⟩ => ⟨S64x16, .f32⟩
  | .hbm, ⟨3, _⟩ => ⟨S16x64, .f32⟩
  | .hbm, ⟨4, _⟩ => ⟨S64x16, .f32⟩
  | .hbm, ⟨5, _⟩ => ⟨S64x16, .f32⟩
  | .hbm, ⟨6, _⟩ => ⟨S16x64, .f32⟩
  | .hbm, ⟨7, _⟩ => ⟨S64x64, .f32⟩
  | .hbm, ⟨8, _⟩ => ⟨S64x16, .f32⟩
  | .hbm, ⟨9, _⟩ => ⟨S16x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x1x64x1, .f32⟩
  | .hbm, ⟨14, _⟩ => ⟨S1x64x1x64, .f32⟩
  | .hbm, ⟨15, _⟩ => ⟨S64x64x64x64, .f32⟩
  | .hbm, ⟨16, _⟩ => ⟨S64x64x64x64, .f32⟩
  | .hbm, ⟨17, _⟩ => ⟨S64x64x64x64, .f32⟩
  | .hbm, ⟨18, _⟩ => ⟨S4096x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  transposes_S16x64_S64x16_1_0 : S16x64.Transposes [1, 0] S64x16
  transposes_S64x16_S16x64_1_0 : S64x16.Transposes [1, 0] S16x64
  transposes_S64x64_S64x64_1_0 : S64x64.Transposes [1, 0] S64x64
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S_S8192x4096 : S_.BroadcastsInDim S8192x4096 (![] : Fin 0 → Fin S8192x4096.rank)
  dot_S64x16_S16x64_S64x64_1_0_0_1_n_n_wf : DotDims.WF S64x16 S16x64 S64x64 [1] [0] [0] [1] [] []
  dot_S8192x4096_S4096x4096_S8192x4096_1_0_0_1_n_n_wf : DotDims.WF S8192x4096 S4096x4096 S8192x4096 [1] [0] [0] [1] [] []

variable [Facts₀]

def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Payload.lean ====
/-
  What the kernel body stores, entry by entry.

  At one grid point the body loads a block of 128 rows of `x` and the whole scaled weight, narrows the rows to
  bf16 (the identity on the extended reals), and multiplies the two on the matrix unit into a zero accumulator.
  Entry `(p, q)` of what it stores is therefore the plain dot product of row `p` of the block with column `q` of
  the weight: `∑ₖ rows[p,k] · weight[k,q]`, the contraction running over the 4096 shared coordinates.
-/
import proofs.«174145_j55155970015578_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The product's record, for short. -/
abbrev D := dot_S128x4096_S4096x4096_S128x4096_1_0_0_1_n_n

/-- The left operand is read at the output's row … -/
theorem lhs_row (i : S128x4096.Idx) (q : D.contr.Idx) : (D.lhsIdx i q 0).val = (i 0).val := by
  unfold DotDims.lhsIdx
  rw [dif_neg (show ¬(0 : Fin S128x4096.rank) ∈ D.lhsBatch by decide),
    dif_pos (show (0 : Fin S128x4096.rank) ∈ D.lhsNonContracting by decide)]
  rfl
/-- … and at the contracted coordinate; -/
theorem lhs_contr (i : S128x4096.Idx) (q : D.contr.Idx) : (D.lhsIdx i q 1).val = (q ⟨0, by decide⟩).val :=
  D.lhsIdx_val_of_single rfl i q
/-- the right operand at the contracted coordinate … -/
theorem rhs_contr (i : S128x4096.Idx) (q : D.contr.Idx) : (D.rhsIdx i q 0).val = (q ⟨0, by decide⟩).val :=
  D.rhsIdx_val_of_single rfl i q
/-- … and at the output's column. -/
theorem rhs_col (i : S128x4096.Idx) (q : D.contr.Idx) : (D.rhsIdx i q 1).val = (i 1).val := by
  unfold DotDims.rhsIdx
  rw [dif_neg (show ¬(1 : Fin S4096x4096.rank) ∈ D.rhsBatch by decide),
    dif_pos (show (1 : Fin S4096x4096.rank) ∈ D.rhsNonContracting by decide)]
  rfl

/-- ENTRY `(p, q)` OF THE STORED BLOCK: row `p` of the loaded rows against column `q` of the loaded weight. -/
theorem pay_apply (rows : Vec Ideal S128x4096 .f32) (weight : Vec Ideal S4096x4096 .bf16) (p : Fin 128) (q : Fin 4096) :
    k0_pay1 (F := Ideal) rows weight (ix2 p q) = ∑ k : Fin 4096, rows (ix2 p k) * weight (ix2 k q) := by
  unfold k0_pay1
  refine (Ideal.matmul_constant_zero_apply D none _ _ (ix2 p q)).trans ?_
  rw [← Equiv.sum_comp (contrEquiv1 D 4096 rfl rfl).symm]
  refine Finset.sum_congr rfl fun k _ => ?_
  have hk := contrEquiv1_symm_val D 4096 rfl rfl k
  have el : D.lhsIdx (ix2 p q) ((contrEquiv1 D 4096 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 4096 rfl rfl).symm k) = ix2 k q := funext fun a => Fin.ext (by
    match a with
    | ⟨0, _⟩ => exact (rhs_contr _ _).trans hk
    | ⟨1, _⟩ => exact rhs_col _ _)
  rw [el, er, shapeCast_self]
  rfl

end Cert.KernelIdeal.Payload

end
-- ==== Proof.Weight.lean ====
/-
  The weight the kernel is launched on.

  Before the one launch the program builds, on the host, the adapter's effective weight: the two low-rank pairs are
  multiplied out to two 64×64 factors, their Kronecker product is laid out as a 4096×4096 matrix
  (`effective` below: the outer product of the two factors over four axes, reshaped), every entry is multiplied
  by the scale `1/16`, and the result is narrowed to bf16. That array is what the launch's second window stages,
  whole, at every grid point. On the extended reals narrowing is the identity, so its entry `(k, j)` is
  `effective[k, j] · 1/16`.
-/
import proofs.«174145_j55155970015578_2_alg».proof.Proof.Gen.KernelIdeal.Frame
import Idealize.ShloMosaic.Lib.StableHlo.Run
import Idealize.ShloMosaic.PureOps.Ideal
import Idealize.ShloMosaic.Lib.Pipeline.Value

noncomputable section

namespace Cert.KernelIdeal.Weight

open Cert.KernelIdeal Cert.KernelIdeal.Gen Idealize.ShloMosaic Idealize.ShloMosaic.TcCoe Idealize.SL.Sem
open Idealize.ShloMosaic.StableHlo

variable {F : FTy → Type} [FloatOps F]

/-- The effective weight from the four low-rank factors: `kron((aᵀ₁ b₁ᵀ)ᵀ, (a₂ᵀ b₂ᵀ)ᵀ)` as the host operations
    spell it — each pair multiplied out and transposed, the two 64×64 factors broadcast to four axes and
    multiplied entry by entry, the four axes flattened to two. -/
def effective (a1 : (⟨S16x64, .f32⟩ : BufTy).Contents (Elt F)) (b1 : (⟨S64x16, .f32⟩ : BufTy).Contents (Elt F))
    (a2 : (⟨S16x64, .f32⟩ : BufTy).Contents (Elt F)) (b2 : (⟨S64x16, .f32⟩ : BufTy).Contents (Elt F)) :
    (⟨S4096x4096, .f32⟩ : BufTy).Contents (Elt F) :=
  shapeCast _ (mulf
    (broadcastInDim S64x64x64x64 ![0, 1, 2, 3] bcast_S64x1x64x1_S64x64x64x64_0_1_2_3
      (broadcastInDim S64x1x64x1 ![0, 2] bcast_S64x64_S64x1x64x1_0_2
        (transpose S64x64 [1, 0]
          (Host.dotGeneral dot_S64x16_S16x64_S64x64_1_0_0_1_n_n none
            (transpose S64x16 [1, 0] a1 transposes_S16x64_S64x16_1_0)
            (transpose S16x64 [1, 0] b1 transposes_S64x16_S16x64_1_0))
          transposes_S64x64_S64x64_1_0)))
    (broadcastInDim S64x64x64x64 ![0, 1, 2, 3] bcast_S1x64x1x64_S64x64x64x64_0_1_2_3
      (broadcastInDim S1x64x1x64 ![1, 3] bcast_S64x64_S1x64x1x64_1_3
        (transpose S64x64 [1, 0]
          (Host.dotGeneral dot_S64x16_S16x64_S64x64_1_0_0_1_n_n none
            (transpose S64x16 [1, 0] a2 transposes_S16x64_S64x16_1_0)
            (transpose S16x64 [1, 0] b2 transposes_S64x16_S16x64_1_0))
          transposes_S64x64_S64x64_1_0))))
    shapeCasts_S64x64x64x64_S4096x4096

variable (m : (ℓ : Loc nD τ sig) → Buf (Elt F) ℓ)

/-- WHAT THE LAUNCH FINDS in its second window's array: the effective weight of the four factor arguments,
    scaled entry by entry and narrowed. -/
theorem staged (c : Dev nD) :
    (V m c main_v11 : (⟨S4096x4096, .bf16⟩ : BufTy).Contents (Elt F))
      = truncf .bf16 (mulf
          (effective (m ((c : Thread nD τ).loc main_arg1)) (m ((c : Thread nD τ).loc main_arg2))
            (m ((c : Thread nD τ).loc main_arg3)) (m ((c : Thread nD τ).loc main_arg4)))
          (broadcastInDim S4096x4096 ![] bcast_S_S4096x4096 (constant S_ .f32 0x3D800000#32))) bitsLt_bf16_f32 := by
  dsimp only [Gen.V]
  simp only [hostOps0, hostOps0_1, hostOps0_2, List.flatten_cons, List.flatten_nil, List.append_nil, List.cons_append,
    List.nil_append]
  after_results
  rfl

/-- Entry by entry, on the extended reals: the effective weight's entry times the scale. -/
theorem staged_apply (m : (ℓ : Loc nD τ sig) → Buf (Elt Ideal) ℓ) (c : Dev nD) (i : S4096x4096.Idx) :
    (V m c main_v11 : (⟨S4096x4096, .bf16⟩ : BufTy).Contents (Elt Ideal)) i
      = effective (F := Ideal) (m ((c : Thread nD τ).loc main_arg1)) (m ((c : Thread nD τ).loc main_arg2))
          (m ((c : Thread nD τ).loc main_arg3)) (m ((c : Thread nD τ).loc main_arg4)) i
        * Ideal.ofBits .f32 0x3D800000#32 := by
  rw [staged]
  rfl

end Cert.KernelIdeal.Weight

end
-- ==== Proof.Scale.lean ====
/-
  The one algebraic law of this certificate, on the extended reals, and the result both programs compute.

  The adapter's effective weight `W` (a Kronecker product of two low-rank factors) is built by the same
  operations in both programs, so it stays a symbol here. The kernel multiplies `W` by the scale `1/16` entry by
  entry and then forms `x · (W/16)`; the reference forms `x · W` and scales the product. Entry `(r, j)` is
  therefore `∑ₖ x[r,k] · (W[k,j] · 1/16)` on one side and `(∑ₖ x[r,k] · W[k,j]) · 1/16` on the other.

  On the extended reals a factor does not move across a sum in general (`⊤ + ⊥ = ⊥`), but a NONNEGATIVE FINITE
  factor does: multiplying by it preserves order and fixes `⊤`, `⊥` and `0`, so `(a + b) · c = a · c + b · c` for
  every `a`, `b`. With associativity of the product this joins the two sides for arbitrary entries of `x` and
  `W`, finite or not.
-/
import Idealize.ShloMosaic.PureOps.Ideal
import Idealize.ShloMosaic.Lib.ValueIdx

noncomputable section

namespace Cert.Scale

open Idealize.ShloMosaic Idealize.ShloMosaic.ValueIdx

/-- The word `0x3D800000` is the float `2⁻⁴`: the real `1/16`. -/
theorem ofBits_sixteenth : Ideal.ofBits .f32 0x3D800000#32 = ((1 / 16 : ℝ) : EReal) := by
  simp [Ideal.ofBits, Ideal.ieee, -EReal.coe_mul]; norm_num

/-- The scale is nonnegative … -/
theorem scale_nonneg : (0 : EReal) ≤ Ideal.ofBits .f32 0x3D800000#32 := by
  rw [ofBits_sixteenth]
  exact_mod_cast (by norm_num : (0 : ℝ) ≤ 1 / 16)

/-- … and finite. -/
theorem scale_ne_top : Ideal.ofBits .f32 0x3D800000#32 ≠ ⊤ := by
  rw [ofBits_sixteenth]
  exact EReal.coe_ne_top _

/-- A nonnegative finite factor distributes over a finite sum of extended reals, whatever the summands. -/
theorem sum_mul_of_nonneg_of_ne_top {ι : Type} (s : Finset ι) (f : ι → EReal) {c : EReal} (hc : 0 ≤ c)
    (hc' : c ≠ ⊤) : (∑ k ∈ s, f k) * c = ∑ k ∈ s, f k * c := by
  classical
  induction s using Finset.induction_on with
  | empty => simp
  | insert a s ha ih =>
    rw [Finset.sum_insert ha, Finset.sum_insert ha, EReal.right_distrib_of_nonneg_of_ne_top hc hc', ih]

/-- Scaling the right factor of every term of a dot product scales the dot product. -/
theorem dot_scale {ι : Type} [Fintype ι] (x w : ι → EReal) {c : EReal} (hc : 0 ≤ c) (hc' : c ≠ ⊤) :
    ∑ k, x k * (w k * c) = (∑ k, x k * w k) * c := by
  rw [sum_mul_of_nonneg_of_ne_top _ _ hc hc']
  exact Finset.sum_congr rfl fun k _ => (mul_assoc _ _ _).symm

/-- THE RESULT, entry by entry: row `r` of `x` against column `j` of the weight scaled by `1/16`. -/
def scaledProduct (x : (⟨2, ![8192, 4096]⟩ : Shape).Idx → EReal) (w : (⟨2, ![4096, 4096]⟩ : Shape).Idx → EReal) :
    (⟨2, ![8192, 4096]⟩ : Shape).Idx → EReal :=
  fun i => ∑ k : Fin 4096, x (ix2 (i 0) k) * (w (ix2 k (i 1)) * Ideal.ofBits .f32 0x3D800000#32)

/-- The same entry with the scale taken out of the sum: the product `x · W`, then scaled. -/
theorem scaledProduct_apply (x : (⟨2, ![8192, 4096]⟩ : Shape).Idx → EReal)
    (w : (⟨2, ![4096, 4096]⟩ : Shape).Idx → EReal) (i : (⟨2, ![8192, 4096]⟩ : Shape).Idx) :
    scaledProduct x w i
      = (∑ k : Fin 4096, x (ix2 (i 0) k) * w (ix2 k (i 1))) * Ideal.ofBits .f32 0x3D800000#32 :=
  dot_scale _ _ scale_nonneg scale_ne_top

end Cert.Scale

end
-- ==== Proof.Whole.lean ====
/-
  From the blocks the grid points write to the whole result array.

  The launch runs over 64 grid points. Point `t` stages rows `128·t … 128·t + 127` of `x` (all 4096 columns), the
  whole scaled weight, and writes back rows `128·t … 128·t + 127` of the result. By the payload's reading, entry
  `(p, q)` of what point `t` writes is `∑ₖ x[128·t + p, k] · weight[k, q]`: exactly entry `(128·t + p, q)` of the
  one whole product `x · weight`. So every point writes its own block of ONE array-wide function; the 64 row blocks
  tile the 8192 rows (row `r` lies in the block of point `r / 128`), and the result array ends holding that function
  everywhere. Written with the arguments as launched, and the staged weight as the effective weight times `1/16`,
  it is the scaled product.
-/
import proofs.«174145_j55155970015578_2_alg».proof.Proof.Gen.KernelIdeal.Value
import proofs.«174145_j55155970015578_2_alg».proof.Proof.Payload
import proofs.«174145_j55155970015578_2_alg».proof.Proof.Weight
import proofs.«174145_j55155970015578_2_alg».proof.Proof.Scale
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- One stored entry against the arrays the blocks were cut from: if row `j 0` of the loaded rows is row `i 0` of an
    array `X`, and column `j 1` of the loaded weight is column `i 1` of an array `Wt`, the entry stored at `j` is
    the dot product of that row of `X` with that column of `Wt`. -/
theorem entry_of_blocks (rows : Vec Ideal S128x4096 .f32) (weight : Vec Ideal S4096x4096 .bf16)
    (X : S8192x4096.Idx → EReal) (Wt : S4096x4096.Idx → EReal) (j : S128x4096.Idx) (i : S8192x4096.Idx)
    (hrows : ∀ k : Fin 4096, rows (ix2 (j 0) k) = X (ix2 (i 0) k))
    (hweight : ∀ k : Fin 4096, weight (ix2 k (j 1)) = Wt (ix2 k (i 1))) :
    k0_pay1 (F := Ideal) rows weight j = ∑ k : Fin 4096, X (ix2 (i 0) k) * Wt (ix2 k (i 1)) := by
  refine ((congrArg (k0_pay1 (F := Ideal) rows weight) (eq_ix2 j)).trans
    (Cert.KernelIdeal.Payload.pay_apply rows weight (j 0) (j 1))).trans ?_
  exact Finset.sum_congr rfl fun k _ => by rw [hrows k, hweight k]

/-- The two arrays the launch finds, as functions of an index: `x` … -/
def foundRows (c : Dev nD) : S8192x4096.Idx → EReal := V m c main_arg0
/-- … and the staged weight. -/
def foundWeight (c : Dev nD) : S4096x4096.Idx → EReal := V m c main_v11

/-- `x` is found as launched. -/
theorem foundRows_eq (c : Dev nD) : foundRows m c = m ((c : Thread nD τ).loc main_arg0) := V_main_arg0 m c
/-- The staged weight's entry is the effective weight's entry times the scale. -/
theorem foundWeight_apply (c : Dev nD) (i : S4096x4096.Idx) :
    foundWeight m c i
      = Cert.KernelIdeal.Weight.effective (F := Ideal) (m ((c : Thread nD τ).loc main_arg1))
          (m ((c : Thread nD τ).loc main_arg2)) (m ((c : Thread nD τ).loc main_arg3))
          (m ((c : Thread nD τ).loc main_arg4)) i
        * Ideal.ofBits .f32 0x3D800000#32 :=
  Cert.KernelIdeal.Weight.staged_apply m c i

/-- The whole product of the two arrays the launch finds. -/
def found (c : Dev nD) : S8192x4096.Idx → EReal :=
  fun i => ∑ k : Fin 4096, foundRows m c (ix2 (i 0) k) * foundWeight m c (ix2 k (i 1))

/-- The printed index maps, decided over the 64 points: the rows' window moves with the result's, on the row axis
    only; the weight's window stays at the origin. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 64 row blocks is some point's. -/
theorem index_onto : ∀ b : Fin 64, ∃ t : Fin cfg0.N, win0_2.index t = ![b.val, 0] :=
  (by decide +kernel : ∀ b : Fin 64, ∃ t : Fin grid0.N, win0_2.index t = ![b.val, 0])

/-- WHAT POINT `t` WRITES BACK is block `t` of the whole product. -/
theorem flushed_eq (c : Dev nD) (t : Fin cfg0.N) :
    (dats m 0 c).flushed 2 t = ((cfg0.win 2).blk t).view.read (Elt Ideal) (found m c) := by
  rw [flushed2]
  unfold out0_2
  rw [View.canon_unit_zero origin]
  simp only [View.ld_unit_zero (S := S128x4096) origin, View.ld_unit_zero (S := S4096x4096) origin]
  obtain ⟨e0, e1, e2, e3, e4⟩ := index_facts t
  funext j
  show k0_pay1 (F := Ideal) (iblk m c 0 t) (iblk m c 1 t) j = found m c (((cfg0.win 2).blk t).view.emb j)
  refine entry_of_blocks (iblk m c 0 t) (iblk m c 1 t) (foundRows m c) (foundWeight m c) j
    (((cfg0.win 2).blk t).view.emb j) (fun k => ?_) (fun k => ?_)
  · show V m c main_arg0 (((cfg0.win 0).blk t).view.emb (ix2 (j 0) k)) = V m c main_arg0 _
    refine congrArg _ (funext fun a => Fin.ext ?_)
    match a with
    | ⟨0, _⟩ =>
      show win0_0.index t (0 : Fin 2) * 128 + 1 * (j 0).val = win0_2.index t (0 : Fin 2) * 128 + 1 * (j 0).val
      omega
    | ⟨1, _⟩ =>
      show win0_0.index t (1 : Fin 2) * 4096 + 1 * k.val = k.val
      omega
  · show V m c main_v11 (((cfg0.win 1).blk t).view.emb (ix2 k (j 1))) = V m c main_v11 _
    refine congrArg _ (funext fun a => Fin.ext ?_)
    match a with
    | ⟨0, _⟩ =>
      show win0_1.index t (0 : Fin 2) * 4096 + 1 * k.val = k.val
      omega
    | ⟨1, _⟩ =>
      show win0_1.index t (1 : Fin 2) * 4096 + 1 * (j 1).val = win0_2.index t (1 : Fin 2) * 4096 + 1 * (j 1).val
      omega

/-- An index of the result array is in point `t`'s block iff each coordinate is in the block's range on its axis. -/
theorem mem_block (t : Fin cfg0.N) (i : S8192x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v12).slice (win0_2.rect t)).set ↔ _
  rw [View.set_slice_whole, Rect.mem_set_unit]
  exact Iff.rfl

/-- The row blocks tile the array: row `r` is in the block of the point whose block index is `r / 128`. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := index_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 4096 ≤ (i 1).val ∧ (i 1).val < win0_2.index t (1 : Fin 2) * 4096 + 4096
    omega

/-- THE RESULT ARRAY after the run is the whole product of what the launch found. -/
theorem final (c : Dev nD) : (dats m 0 c).arrAt 2 cfg0.N = found m c :=
  (dats m 0 c).arrAt_eq_of_cover 2 (found m c) (fun t _ => flushed_eq m c t) covered

/-- In the arguments as launched: `x` against the effective weight of the four factors, scaled. -/
theorem found_eq (c : Dev nD) :
    found m c = Cert.Scale.scaledProduct (m ((c : Thread nD τ).loc main_arg0))
      (Cert.KernelIdeal.Weight.effective (F := Ideal) (m ((c : Thread nD τ).loc main_arg1))
        (m ((c : Thread nD τ).loc main_arg2)) (m ((c : Thread nD τ).loc main_arg3))
        (m ((c : Thread nD τ).loc main_arg4))) := by
  funext i
  show ∑ k : Fin 4096, foundRows m c (ix2 (i 0) k) * foundWeight m c (ix2 k (i 1)) = _
  simp only [foundRows_eq, foundWeight_apply]
  rfl

/-- The run, read: the result array at the scaled product of the arguments, the arguments unchanged. -/
theorem run : θ_run defs (onTc (τ := τ) (main (F := Ideal))) ⟨m, fun _ => 0, ρ⟩ fun r => ∀ c : Dev nD,
      r.2.mem ((c : Thread nD τ).loc main_v12)
        = Cert.Scale.scaledProduct (m ((c : Thread nD τ).loc main_arg0))
            (Cert.KernelIdeal.Weight.effective (F := Ideal) (m ((c : Thread nD τ).loc main_arg1))
              (m ((c : Thread nD τ).loc main_arg2)) (m ((c : Thread nD τ).loc main_arg3))
              (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (found_eq m c)), (h c).2⟩)
    (run_blocks m ρ)

end Cert.KernelIdeal.Whole

end
-- ==== Proof.Reference.lean ====
/-
  The reference's result, entry by entry.

  The reference multiplies `x` by the effective weight as one whole product and scales every entry of the product
  by `1/16`: entry `(r, j)` is `(∑ₖ x[r,k] · W[k,j]) · 1/16`. Since the scale is a nonnegative finite number it may
  be moved inside the sum onto the weight's entries, which is the form the kernel computes.
-/
import proofs.«174145_j55155970015578_2_alg».proof.Proof.Gen.ReferenceIdeal.Read
import proofs.«174145_j55155970015578_2_alg».proof.Proof.Scale

noncomputable section

namespace Cert.ReferenceIdeal.Spec

open Cert.ReferenceIdeal Cert.ReferenceIdeal.Read Idealize.ShloMosaic Idealize.ShloMosaic.ValueIdx

/-- The whole product's left operand is read at the output's row and the contracted coordinate … -/
theorem lidx_eq (i : S8192x4096.Idx) (k : Fin 4096) : lidx_main_v9 i k = ix2 (i 0) k :=
  funext fun a => Fin.ext (by match a with | ⟨0, _⟩ => rfl | ⟨1, _⟩ => rfl)
/-- … and its right operand at the contracted coordinate and the output's column. -/
theorem ridx_eq (i : S8192x4096.Idx) (k : Fin 4096) : ridx_main_v9 i k = ix2 k (i 1) :=
  funext fun a => Fin.ext (by match a with | ⟨0, _⟩ => rfl | ⟨1, _⟩ => rfl)

/-- THE REFERENCE'S RESULT is the scaled product of `x` with the effective weight its own operations build
    (the stage `val_main_v8` of the four factor arguments). -/
theorem result_eq (x0 : (⟨S8192x4096, .f32⟩ : BufTy).Contents (Elt Ideal)) (x1 : (⟨S16x64, .f32⟩ : BufTy).Contents (Elt Ideal))
    (x2 : (⟨S64x16, .f32⟩ : BufTy).Contents (Elt Ideal)) (x3 : (⟨S16x64, .f32⟩ : BufTy).Contents (Elt Ideal))
    (x4 : (⟨S64x16, .f32⟩ : BufTy).Contents (Elt Ideal)) :
    val_main_v11 (F := Ideal) x0 x1 x2 x3 x4
      = Cert.Scale.scaledProduct x0 (val_main_v8 (F := Ideal) x1 x2 x3 x4) := by
  funext i
  rw [Cert.Scale.scaledProduct_apply, val_main_v11_apply, val_main_v9_apply, val_main_v10_apply, val_main_cst_apply]
  simp only [lidx_eq, ridx_eq, Ideal.mulf_def, Ideal.ofBits_def]
  rfl

end Cert.ReferenceIdeal.Spec

end
-- ==== Proof.lean ====
/-
  A low-rank Kronecker adapter applied to `x`: `x · (W / 16)` against `(x · W) / 16`.

  Both programs build the same 4096×4096 effective weight `W` on the host from four small factors (two rank-16
  products, transposed, their Kronecker product flattened to a matrix). The kernel then scales `W` by `1/16`
  entry by entry, narrows it to bf16 and multiplies 128-row blocks of `x` against the whole of it on the matrix
  unit, one block per grid point; the reference multiplies `x` by `W` in one product and scales the result.

  On the extended reals narrowing is the identity and both products are plain sums over the 4096 contracted
  coordinates, so entry `(r, j)` is `∑ₖ x[r,k] · (W[k,j] · 1/16)` in the kernel and `(∑ₖ x[r,k] · W[k,j]) · 1/16`
  in the reference. The two agree because `1/16` is a nonnegative finite number: such a factor distributes over
  any sum of extended reals and the product is associative (Proof/Scale.lean). Nothing is asked of the entries of
  `x` or `W`, so the precondition on the inputs is never opened.

  The pieces: Proof/Payload.lean (what one grid point stores, entry by entry), Proof/Weight.lean (the scaled weight
  the launch finds), Proof/Whole.lean (the 64 row blocks tile the result: the array ends at the scaled product),
  Proof/Reference.lean (the reference's result is the same scaled product of its own effective weight). Here: the
  two effective weights are one function of the four factors, the three runs, and the claim.
-/
import proofs.«174145_j55155970015578_2_alg».proof.Defs
import proofs.«174145_j55155970015578_2_alg».proof.Proof.Gen.Kernel
import proofs.«174145_j55155970015578_2_alg».proof.Proof.Gen.Kernel.Skeleton
import proofs.«174145_j55155970015578_2_alg».proof.Proof.Gen.Kernel.Launch
import proofs.«174145_j55155970015578_2_alg».proof.Proof.Gen.Kernel.Points
import proofs.«174145_j55155970015578_2_alg».proof.Proof.Gen.Kernel.Frame
import proofs.«174145_j55155970015578_2_alg».proof.Proof.Gen.KernelIdeal
import proofs.«174145_j55155970015578_2_alg».proof.Proof.Gen.KernelIdeal.Skeleton
import proofs.«174145_j55155970015578_2_alg».proof.Proof.Gen.KernelIdeal.Launch
import proofs.«174145_j55155970015578_2_alg».proof.Proof.Gen.KernelIdeal.Points
import proofs.«174145_j55155970015578_2_alg».proof.Proof.Gen.KernelIdeal.Frame
import proofs.«174145_j55155970015578_2_alg».proof.Proof.Gen.ReferenceIdeal
import proofs.«174145_j55155970015578_2_alg».proof.Proof.Gen.Pre_finite_inputs
import proofs.«174145_j55155970015578_2_alg».proof.Proof.Gen.KernelIdeal.Value
import proofs.«174145_j55155970015578_2_alg».proof.Proof.Gen.ReferenceIdeal.Run
import proofs.«174145_j55155970015578_2_alg».proof.Proof.Gen.ReferenceIdeal.Read
import proofs.«174145_j55155970015578_2_alg».proof.Proof.Whole
import proofs.«174145_j55155970015578_2_alg».proof.Proof.Reference
import Idealize.ShloMosaic.Adequacy
import Idealize.ShloMosaic.Init

noncomputable section

namespace Cert.Proof

open Idealize.ShloMosaic Idealize.ShloMosaic.TcCoe Idealize.SL.Sem

/-- The effective weight is ONE function of the four factors: the reference's operations that build it are,
    one for one, the kernel program's host operations. -/
theorem effective_eq (a1 : (⟨Cert.ReferenceIdeal.S16x64, .f32⟩ : BufTy).Contents (Elt Ideal))
    (b1 : (⟨Cert.ReferenceIdeal.S64x16, .f32⟩ : BufTy).Contents (Elt Ideal))
    (a2 : (⟨Cert.ReferenceIdeal.S16x64, .f32⟩ : BufTy).Contents (Elt Ideal))
    (b2 : (⟨Cert.ReferenceIdeal.S64x16, .f32⟩ : BufTy).Contents (Elt Ideal)) :
    Cert.ReferenceIdeal.Read.val_main_v8 (F := Ideal) a1 b1 a2 b2
      = Cert.KernelIdeal.Weight.effective (F := Ideal) a1 b1 a2 b2 := rfl

/-- Each program runs to the end without a fault and leaves its arguments as launched: the two kernel programs by
    the pipeline's frame, the reference by its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories agreeing on the five arguments both programs end with the result array at the scaled product of
    `x` with the effective weight of the four factors. -/
theorem algebraic : Cert.algebraic_KernelIdeal_ReferenceIdeal := by
  intro m ρ m' ρ' _ hagree
  refine ⟨fun c => Cert.Scale.scaledProduct (m ((c : Thread Cert.KernelIdeal.nD Cert.KernelIdeal.τ).loc Cert.KernelIdeal.main_arg0))
      (Cert.KernelIdeal.Weight.effective (F := Ideal)
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Spec.result_eq, effective_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
